-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_arg4 : FVec F S4096x14336 .f32) (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  let main_v19 : FVec F S4096x14336 .f32 := Host.absf main_arg4
  let main_cst_6 : FVec F S_ .f32 := constant S_ .f32 0x7F800000#32
  let main_v20 : FVec F S4096x14336 .f32 := broadcastInDim S4096x14336 ![] bcast_S_S4096x14336 main_cst_6
  let main_v21 : IVec S4096x14336 1 := cmpf .olt main_v19 main_v20
  let main_c_7 : IVec S_ 1 := constantI S_ 1 1#1
  let main_v22 : IVec S_ 1 := (fun x v => Host.reduce IntOp.andi x v reducesTo_S4096x14336_S_d0_1 h_S_) main_v21 main_c_7
  let main_v23 : IVec S_ 1 := andi main_v18 main_v22
  main_v23

def fn {F : FTy → Type} [FloatOps F] (main_arg0 : FVec F S1x2048x4096 .f32) (main_arg1 : FVec F S4096 .f32) (main_arg2 : FVec F S14336x4096 .f32) (main_arg3 : FVec F S14336x4096 .f32) (main_arg4 : FVec F S4096x14336 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_arg4 main_v13 main_v16
-- ==== Kernel.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S2048x4096 : Shape := ⟨2, ![2048, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S2048x4096, .f32⟩
  | .hbm, ⟨6, _⟩ => ⟨S1x4096, .f32⟩
  | .hbm, ⟨7, _⟩ => ⟨S2048x4096, .bf16⟩
  | .hbm, ⟨8, _⟩ => ⟨S14336x4096, .bf16⟩
  | .hbm, ⟨9, _⟩ => ⟨S14336x4096, .bf16⟩
  | .hbm, ⟨10, _⟩ => ⟨S4096x14336, .bf16⟩
  | .hbm, ⟨11, _⟩ => ⟨S2048x4096, .f32⟩
  | .hbm, ⟨12, _⟩ => ⟨S1x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S512x4096, .bf16⟩
  | .local _ .vmem, ⟨6, _⟩ => ⟨S512x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S4096x256, .bf16⟩
  | .local _ .vmem, ⟨12, _⟩ => ⟨S4096x256, .bf16⟩
  | .local _ .vmem, ⟨13, _⟩ => ⟨S512x4096, .f32⟩
  | .local _ .vmem, ⟨14, _⟩ => ⟨S512x4096, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 56], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x2048x4096_S2048x4096 : S1x2048x4096.ShapeCasts S2048x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S2048x4096_S1x2048x4096 : S2048x4096.ShapeCasts S1x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .bf16 = 32 ∨ (Rect.block (s := S2048x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x4096.size a
  hwx1_0 : ∀ i : grid1.Coords, EltTy.bits .bf16 = 32 ∨ (Rect.block (s := S2048x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S14336x4096.size a
  hwx1_1 : ∀ i : grid1.Coords, EltTy.bits .bf16 = 32 ∨ (Rect.block (s := S14336x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S14336x4096.size a
  hwx1_2 : ∀ i : grid1.Coords, EltTy.bits .bf16 = 32 ∨ (Rect.block (s := S14336x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x14336.size a
  hwx1_3 : ∀ i : grid1.Coords, EltTy.bits .bf16 = 32 ∨ (Rect.block (s := S4096x14336) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S2048x4096.size a
  hwx1_4 : ∀ i : grid1.Coords, EltTy.bits .f32 = 32 ∨ (Rect.block (s := S2048x4096) S512x4096.size (cc1_transform_4 i) (hinb1_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S1x2048x14336 : Shape := ⟨3, ![1, 2048, 14336]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S1x2048x4096, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x4096, .f32⟩
  | .hbm, ⟨17, _⟩ => ⟨S1x2048x4096, .f32⟩
  | .hbm, ⟨18, _⟩ => ⟨S1x1x4096, .f32⟩
  | .hbm, ⟨19, _⟩ => ⟨S1x2048x4096, .f32⟩
  | .hbm, ⟨20, _⟩ => ⟨S1x2048x4096, .f32⟩
  | .hbm, ⟨21, _⟩ => ⟨S1x2048x14336, .f32⟩
  | .hbm, ⟨22, _⟩ => ⟨S1x2048x14336, .f32⟩
  | .hbm, ⟨23, _⟩ => ⟨S1x2048x14336, .f32⟩
  | .hbm, ⟨24, _⟩ => ⟨S1x2048x14336, .f32⟩
  | .hbm, ⟨25, _⟩ => ⟨S_, .f32⟩
  | .hbm, ⟨26, _⟩ => ⟨S1x2048x14336, .f32⟩
  | .hbm, ⟨27, _⟩ => ⟨S1x2048x14336, .f32⟩
  | .hbm, ⟨28, _⟩ => ⟨S_, .f32⟩
  | .hbm, ⟨29, _⟩ => ⟨S1x2048x14336, .f32⟩
  | .hbm, ⟨30, _⟩ => ⟨S1x2048x14336, .f32⟩
  | .hbm, ⟨31, _⟩ => ⟨S1x2048x14336, .f32⟩
  | .hbm, ⟨32, _⟩ => ⟨S1x2048x14336, .f32⟩
  | .hbm, ⟨33, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x14336 : S_.BroadcastsInDim S1x2048x14336 (![] : Fin 0 → Fin S1x2048x14336.rank)
  dot_S1x2048x4096_S14336x4096_S1x2048x14336_2_1_01_0_n_n_wf : DotDims.WF S1x2048x4096 S14336x4096 S1x2048x14336 [2] [1] [0, 1] [0] [] []
  dot_S1x2048x14336_S4096x14336_S1x2048x4096_2_1_01_0_n_n_wf : DotDims.WF S1x2048x14336 S4096x14336 S1x2048x4096 [2] [1] [0, 1] [0] [] []

variable [Facts₀]

def dot_S1x2048x4096_S14336x4096_S1x2048x14336_2_1_01_0_n_n : DotDims S1x2048x4096 S14336x4096 S1x2048x14336 where
  lhsContracting := [2]
  rhsContracting := [1]
  lhsNonContracting := [0, 1]
  rhsNonContracting := [0]
  lhsBatch := []
  rhsBatch := []
  wf := dot_S1x2048x4096_S14336x4096_S1x2048x14336_2_1_01_0_n_n_wf
def dot_S1x2048x14336_S4096x14336_S1x2048x4096_2_1_01_0_n_n : DotDims S1x2048x14336 S4096x14336 S1x2048x4096 where
  lhsContracting := [2]
  rhsContracting := [1]
  lhsNonContracting := [0, 1]
  rhsNonContracting := [0]
  lhsBatch := []
  rhsBatch := []
  wf := dot_S1x2048x14336_S4096x14336_S1x2048x4096_2_1_01_0_n_n_wf

class Facts : Prop extends Facts₀ where

variable [Facts]
-- ==== Proof.Spec.lean ====
/-
  The mathematics both programs compute, on the extended reals.

  A row r of 4096 numbers is scaled by the reciprocal square root of its mean square plus a small constant and by a
  weight vector w, entry by entry:  normed r w j = r j · rsqrt ((Σ_k r k · r k) / 4096 + ε) · w j.
  A gated layer then takes, for each of 14336 hidden units k, the two inner products g_k = Σ_j h_j · G k j and
  u_k = Σ_j h_j · U k j of the normalised row h with the k-th rows of two weight matrices, forms
  (g_k · logistic g_k) · u_k, and contracts that with a row of a third matrix:
  mlpRow h G U d = Σ_k ((g_k · logistic g_k) · u_k) · d k.
  The two constants are kept as the words both programs print; nothing here depends on their values.
-/
import Idealize.ShloMosaic.PureOps.Ideal
import Idealize.ShloMosaic.Lib.ValueIdx

noncomputable section

open scoped BigOperators

namespace Cert.Mlp

open Idealize.ShloMosaic Idealize.ShloMosaic.ValueIdx

/-- The row length 4096 as both programs write it (the f32 word of 4096.0). -/
abbrev cH : EReal := Ideal.ofBits .f32 0x45800000#32
/-- The small constant added to the mean square (the f32 word nearest 1e-5). -/
abbrev cEps : EReal := Ideal.ofBits .f32 0x3727C5AC#32

/-- The reciprocal root-mean-square of a row: rsqrt (mean of squares + ε). -/
def rowScale (r : Fin 4096 → EReal) : EReal := Ideal.rsqrt (Ideal.div (∑ k : Fin 4096, r k * r k) cH + cEps)

/-- Entry j of the normalised, weighted row. -/
def normed (r w : Fin 4096 → EReal) (j : Fin 4096) : EReal := r j * rowScale r * w j

/-- One hidden unit's activation: (g · logistic g) · u. -/
def unit (g u : EReal) : EReal := g * Ideal.logistic g * u

/-- Hidden unit k of the gated layer on the row h. -/
def hidden (h : Fin 4096 → EReal) (G U : Fin 14336 → Fin 4096 → EReal) (k : Fin 14336) : EReal :=
  unit (∑ j : Fin 4096, h j * G k j) (∑ j : Fin 4096, h j * U k j)

/-- The gated layer's output entry: the hidden units contracted with a row d of the down projection. -/
def mlpRow (h : Fin 4096 → EReal) (G U : Fin 14336 → Fin 4096 → EReal) (d : Fin 14336 → EReal) : EReal :=
  ∑ k : Fin 14336, hidden h G U k * d k

/-- The whole result at row s, column c, from the five argument arrays read by coordinates. -/
def result (x : (⟨3, ![1, 2048, 4096]⟩ : Shape).Idx → EReal) (w : (⟨1, ![4096]⟩ : Shape).Idx → EReal)
    (gw uw : (⟨2, ![14336, 4096]⟩ : Shape).Idx → EReal) (dw : (⟨2, ![4096, 14336]⟩ : Shape).Idx → EReal)
    (s : Fin 2048) (c : Fin 4096) : EReal :=
  mlpRow (normed (fun j => x (ix3 (0 : Fin 1) s j)) (fun j => w (ix1 j)))
    (fun k j => gw (ix2 k j)) (fun k j => uw (ix2 k j)) (fun k => dw (ix2 c k))

/-- The result as an array of shape [1, 2048, 4096]. -/
def resultArr (x : (⟨3, ![1, 2048, 4096]⟩ : Shape).Idx → EReal) (w : (⟨1, ![4096]⟩ : Shape).Idx → EReal)
    (gw uw : (⟨2, ![14336, 4096]⟩ : Shape).Idx → EReal) (dw : (⟨2, ![4096, 14336]⟩ : Shape).Idx → EReal) :
    (⟨3, ![1, 2048, 4096]⟩ : Shape).Idx → EReal :=
  fun i => result x w gw uw dw ⟨(i 1).val, (i 1).isLt⟩ ⟨(i 2).val, (i 2).isLt⟩

end Cert.Mlp

end
-- ==== Proof.RefIsSpec.lean ====
/-
  The reference program computes the specification.

  Read one entry at a time, the reference program is: square the row's entries and add them up, divide by the row
  length, add the small constant, take the reciprocal square root, multiply the row by that scale and by the weight
  vector; contract the normalised row with the rows of the two weight matrices; multiply the first contraction by
  1 / (1 + exp (-g)) and by the second; contract the products with a row of the third matrix. Each step is one stage of
  the generated reading of the reference program, and each stage read at an index built from coordinates is the
  corresponding piece of the specification.
-/
import proofs.«138603_j45956150067864_2_alg».proof.Proof.Gen.ReferenceIdeal.Read
import proofs.«138603_j45956150067864_2_alg».proof.Proof.Spec
import Idealize.ShloMosaic.Lib.ValueIdx
import Idealize.ShloMosaic.PureOps.Ideal.Laws
import Idealize.ShloMosaic.PureOps.IdealRules

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Read

/-- The f32 word of 1.0 denotes the number one. -/
theorem one_word : Ideal.ofBits .f32 0x3F800000#32 = (1 : EReal) := IdealRules.sign_bit.ideal_onePat .f32

/-- The entry of the row of squares that the sum over the last axis reads for row s at position k. -/
theorem idx_sq (s : Fin 2048) (j k : Fin 4096) :
    idx_main_v1 (idx_main_v2 (idx_main_v8 (ix3 (0 : Fin 1) s j))) k = ix3 (0 : Fin 1) s k :=
  funext fun a => Fin.ext (by match a with | ⟨0, _⟩ => rfl | ⟨1, _⟩ => rfl | ⟨2, _⟩ => rfl)

/-- The scale broadcast along row s is the reciprocal root-mean-square of that row. -/
theorem scale_at (x0 : (⟨S1x2048x4096, .f32⟩ : BufTy).Contents (Elt Ideal)) (s : Fin 2048) (j : Fin 4096) :
    val_main_v8 (F := Ideal) x0 (ix3 (0 : Fin 1) s j) = Cert.Mlp.rowScale (fun j => x0 (ix3 (0 : Fin 1) s j)) := by
  rw [val_main_v8_apply, val_main_v7_apply, val_main_v6_apply, val_main_v4_apply, val_main_v2_apply, val_main_v1_apply,
    val_main_cst_apply, val_main_v3_apply, val_main_cst_0_apply, val_main_v5_apply, val_main_cst_1_apply]
  unfold Cert.Mlp.rowScale
  simp only [Ideal.hostUnary_rsqrt_def, Ideal.addf_def, Ideal.hostDivf_def, Ideal.ofBits_def, Ideal.ofBits_zero_f32, zero_add]
  have hsum : ∑ k : Fin 4096, val_main_v0 (F := Ideal) x0 (idx_main_v1 (idx_main_v2 (idx_main_v8 (ix3 (0 : Fin 1) s j))) k)
      = ∑ k : Fin 4096, x0 (ix3 (0 : Fin 1) s k) * x0 (ix3 (0 : Fin 1) s k) :=
    Finset.sum_congr rfl fun k _ => by rw [idx_sq, val_main_v0_apply]; rfl
  rw [hsum]

/-- The normalised, weighted input at row s, position j. -/
theorem normed_at (x0 : (⟨S1x2048x4096, .f32⟩ : BufTy).Contents (Elt Ideal)) (x1 : (⟨S4096, .f32⟩ : BufTy).Contents (Elt Ideal))
    (s : Fin 2048) (j : Fin 4096) :
    val_main_v12 (F := Ideal) x0 x1 (ix3 (0 : Fin 1) s j)
      = Cert.Mlp.normed (fun j => x0 (ix3 (0 : Fin 1) s j)) (fun j => x1 (ix1 j)) j := by
  rw [val_main_v12_apply, val_main_v9_apply, scale_at, val_main_v11_apply, val_main_v10_apply]
  have ew : idx_main_v10 (idx_main_v11 (ix3 (0 : Fin 1) s j)) = ix1 j :=
    funext fun a => Fin.ext (by match a with | ⟨0, _⟩ => rfl)
  rw [ew]
  rfl

/-- The first contraction at row s, hidden unit k: the normalised row against row k of the first weight matrix. -/
theorem first_at (x0 : (⟨S1x2048x4096, .f32⟩ : BufTy).Contents (Elt Ideal)) (x1 : (⟨S4096, .f32⟩ : BufTy).Contents (Elt Ideal))
    (x2 : (⟨S14336x4096, .f32⟩ : BufTy).Contents (Elt Ideal)) (s : Fin 2048) (k : Fin 14336) :
    val_main_v13 (F := Ideal) x0 x1 x2 (ix3 (0 : Fin 1) s k)
      = ∑ j : Fin 4096, Cert.Mlp.normed (fun j => x0 (ix3 (0 : Fin 1) s j)) (fun j => x1 (ix1 j)) j * x2 (ix2 k j) := by
  rw [val_main_v13_apply]
  refine Finset.sum_congr rfl fun j _ => ?_
  have el : lidx_main_v13 (ix3 (0 : Fin 1) s k) j = ix3 (0 : Fin 1) s j :=
    funext fun a => Fin.ext (by match a with | ⟨0, _⟩ => rfl | ⟨1, _⟩ => rfl | ⟨2, _⟩ => rfl)
  have er : ridx_main_v13 (ix3 (0 : Fin 1) s k) j = ix2 k j :=
    funext fun a => Fin.ext (by match a with | ⟨0, _⟩ => rfl | ⟨1, _⟩ => rfl)
  rw [el, er, normed_at]

/-- The second contraction at row s, hidden unit k: the normalised row against row k of the second weight matrix. -/
theorem second_at (x0 : (⟨S1x2048x4096, .f32⟩ : BufTy).Contents (Elt Ideal)) (x1 : (⟨S4096, .f32⟩ : BufTy).Contents (Elt Ideal))
    (x3 : (⟨S14336x4096, .f32⟩ : BufTy).Contents (Elt Ideal)) (s : Fin 2048) (k : Fin 14336) :
    val_main_v14 (F := Ideal) x0 x1 x3 (ix3 (0 : Fin 1) s k)
      = ∑ j : Fin 4096, Cert.Mlp.normed (fun j => x0 (ix3 (0 : Fin 1) s j)) (fun j => x1 (ix1 j)) j * x3 (ix2 k j) := by
  rw [val_main_v14_apply]
  refine Finset.sum_congr rfl fun j _ => ?_
  have el : lidx_main_v14 (ix3 (0 : Fin 1) s k) j = ix3 (0 : Fin 1) s j :=
    funext fun a => Fin.ext (by match a with | ⟨0, _⟩ => rfl | ⟨1, _⟩ => rfl | ⟨2, _⟩ => rfl)
  have er : ridx_main_v14 (ix3 (0 : Fin 1) s k) j = ix2 k j :=
    funext fun a => Fin.ext (by match a with | ⟨0, _⟩ => rfl | ⟨1, _⟩ => rfl)
  rw [el, er, normed_at]

/-- The first contraction times its logistic times the second contraction is the hidden unit of the specification. -/
theorem hidden_at (x0 : (⟨S1x2048x4096, .f32⟩ : BufTy).Contents (Elt Ideal)) (x1 : (⟨S4096, .f32⟩ : BufTy).Contents (Elt Ideal))
    (x2 x3 : (⟨S14336x4096, .f32⟩ : BufTy).Contents (Elt Ideal)) (s : Fin 2048) (k : Fin 14336) :
    val_main_v16 (F := Ideal) x0 x1 x2 x3 (ix3 (0 : Fin 1) s k)
      = Cert.Mlp.hidden (Cert.Mlp.normed (fun j => x0 (ix3 (0 : Fin 1) s j)) (fun j => x1 (ix1 j)))
          (fun k j => x2 (ix2 k j)) (fun k j => x3 (ix2 k j)) k := by
  rw [val_main_v16_apply, val_main_v15_apply, val_main_call0_v5_apply, val_main_call0_v4_apply, val_main_call0_cst_0_apply,
    val_main_call0_v3_apply, val_main_call0_v2_apply, val_main_call0_cst_apply, val_main_call0_v1_apply,
    val_main_call0_v0_apply, first_at, second_at]
  unfold Cert.Mlp.hidden Cert.Mlp.unit Ideal.logistic
  simp only [Ideal.mulf_def, Ideal.addf_def, Ideal.hostDivf_def, Ideal.hostUnary_exp_def, Ideal.hostNegf_def, Ideal.negf_def,
    Ideal.ofBits_def, one_word]

/-- The reference program's result is the specification's array. -/
theorem ref_eq (x0 : (⟨S1x2048x4096, .f32⟩ : BufTy).Contents (Elt Ideal)) (x1 : (⟨S4096, .f32⟩ : BufTy).Contents (Elt Ideal))
    (x2 x3 : (⟨S14336x4096, .f32⟩ : BufTy).Contents (Elt Ideal)) (x4 : (⟨S4096x14336, .f32⟩ : BufTy).Contents (Elt Ideal)) :
    val_main_v17 (F := Ideal) x0 x1 x2 x3 x4 = Cert.Mlp.resultArr x0 x1 x2 x3 x4 := by
  funext i
  rw [val_main_v17_apply]
  unfold Cert.Mlp.resultArr Cert.Mlp.result Cert.Mlp.mlpRow
  refine Finset.sum_congr rfl fun k _ => ?_
  have el : lidx_main_v17 i k = ix3 (0 : Fin 1) (⟨(i 1).val, (i 1).isLt⟩ : Fin 2048) k :=
    funext fun a => Fin.ext (by
      match a with
      | ⟨0, _⟩ => exact Nat.lt_one_iff.mp (i 0).isLt
      | ⟨1, _⟩ => rfl
      | ⟨2, _⟩ => rfl)
  have er : ridx_main_v17 i k = ix2 (⟨(i 2).val, (i 2).isLt⟩ : Fin 4096) k :=
    funext fun a => Fin.ext (by match a with | ⟨0, _⟩ => rfl | ⟨1, _⟩ => rfl)
  rw [el, er, hidden_at]

end Cert.ReferenceIdeal.RefValue

end
-- ==== Proof.RunNamed.lean ====
/-
  The kernel program's run with its result NAMED.

  The program is a stretch of host operations (two reshapes), the normalisation region, a second stretch (three
  changes of float format), the gated-layer region, and a last reshape. Every weakly fair execution terminates with
  each buffer the program does not scope at the contents the segments' fold leaves there: the result buffer at the
  fold's value, the five arguments as launched.
-/
import proofs.«138603_j45956150067864_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the value the
    fold through the five segments leaves there and the argument arrays as launched. -/
theorem run_named : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.HostGlue.lean ====
/-
  What the kernel program's host operations do to the buffers.

  Before the first region two reshapes copy the row array and the weight vector into arrays of rank two; before the
  second region three format changes narrow the three weight matrices; after it one reshape gives the result its
  leading axis of size one back. A region changes only its own arrays, and a host operation only the buffer it writes,
  so each buffer read through the fold of boundary contents is one such operation applied to a launch buffer or to
  what a region leaves in one of its arrays.
-/
import proofs.«138603_j45956150067864_2_alg».proof.Proof.Gen.KernelIdeal.Frame
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The row array entering the first region is the launch array with its leading axis dropped. -/
theorem V1_v0 (c : Dev nD) :
    V1 m ρ c main_v0 = shapeCast S2048x4096 (m ((c : Thread nD τ).loc main_arg0)) shapeCasts_S1x2048x4096_S2048x4096 := by
  show StableHlo.after hostOps0 (W0 m ρ c) (Proc.devRef .tc main_v0) = _
  after_results
  rfl

/-- The weight vector entering the first region is the launch vector as a one-row array. -/
theorem V1_v1 (c : Dev nD) :
    V1 m ρ c main_v1 = shapeCast S1x4096 (m ((c : Thread nD τ).loc main_arg1)) shapeCasts_S4096_S1x4096 := by
  show StableHlo.after hostOps0 (W0 m ρ c) (Proc.devRef .tc main_v1) = _
  after_results
  rfl

/-- The first region's output array is untouched by the three format changes: entering the second region it holds
    what the first region's write-backs left. -/
theorem V3_v2 (c : Dev nD) : V3 m ρ c main_v2 = (dat0 (V1 m ρ) c).arrAt 2 cfg0.N :=
  calc V3 m ρ c main_v2
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

/-- The first weight matrix is still the launch array when the first region has ended: neither the two reshapes nor the region write it. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The second weight matrix is still the launch array when the first region has ended: neither the two reshapes nor the region write it. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The third weight matrix is still the launch array when the first region has ended: neither the two reshapes nor the region write it. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first weight matrix entering the second region is the launch matrix narrowed to the 16-bit format. -/
theorem V3_v3 (c : Dev nD) :
    V3 m ρ c main_v3 = truncf .bf16 (m ((c : Thread nD τ).loc main_arg2)) bitsLt_bf16_f32 := by
  show StableHlo.after hostOps1 (W2 m ρ c) (Proc.devRef .tc main_v3) = _
  after_results
  exact congrArg (fun x => truncf .bf16 x bitsLt_bf16_f32) (W2_arg2 m ρ c)

/-- The second weight matrix entering the second region is the launch matrix narrowed to the 16-bit format. -/
theorem V3_v4 (c : Dev nD) :
    V3 m ρ c main_v4 = truncf .bf16 (m ((c : Thread nD τ).loc main_arg3)) bitsLt_bf16_f32 := by
  show StableHlo.after hostOps1 (W2 m ρ c) (Proc.devRef .tc main_v4) = _
  after_results
  exact congrArg (fun x => truncf .bf16 x bitsLt_bf16_f32) (W2_arg3 m ρ c)

/-- The third weight matrix entering the second region is the launch matrix narrowed to the 16-bit format. -/
theorem V3_v5 (c : Dev nD) :
    V3 m ρ c main_v5 = truncf .bf16 (m ((c : Thread nD τ).loc main_arg4)) bitsLt_bf16_f32 := by
  show StableHlo.after hostOps1 (W2 m ρ c) (Proc.devRef .tc main_v5) = _
  after_results
  exact congrArg (fun x => truncf .bf16 x bitsLt_bf16_f32) (W2_arg4 m ρ c)

/-- The returned array is what the second region's write-backs left in its output array, with a leading axis of size
    one put back. -/
theorem W5_v7 (c : Dev nD) :
    W5 m ρ c (Proc.devRef .tc main_v7)
      = shapeCast S1x2048x4096 ((dat1 (V3 m ρ) c).arrAt 4 cfg1.N) shapeCasts_S2048x4096_S1x2048x4096 := by
  show StableHlo.after hostOps2 (W4 m ρ c) (Proc.devRef .tc main_v7) = _
  after_results
  exact congrArg (fun x => shapeCast S1x2048x4096 x shapeCasts_S2048x4096_S1x2048x4096) (W4_arr m ρ c 4)

end Cert.KernelIdeal.HostGlue

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RmsValue.lean ====
/-
  WHAT THE NORMALISATION REGION LEAVES IN ITS OUTPUT ARRAY.

  The region walks 8 points; point t takes rows 256·t … 256·t + 255 of a 2048-by-4096 array a, together with the one
  weight row w, and writes back a 256-by-4096 block. Inside a block, row p is squared entry by entry and summed along
  its 4096 columns; the sum is divided by 4096, the small constant is added, the reciprocal square root is taken, and the
  row is multiplied by that number and then, entry by entry, by w. So entry (p, q) of the block is
  normed (row p of the block) w q, and since the 8 row blocks tile the array, the array ends holding, at (s, j),
  normed (row s of a) w j.

  The steps: the block's value at one entry (pay_at, over the lane sum sumsq_at and the column view col_at); where each
  point's three blocks sit in their arrays (idx_facts); what a point writes back, as a block of the closed form
  (flushed_eq); every index lies in the block of the point its row selects (cover); the array after the run (final2).
-/
import proofs.«138603_j45956150067864_2_alg».proof.Proof.Gen.KernelIdeal.Frame
import proofs.«138603_j45956150067864_2_alg».proof.Proof.Spec
import proofs.«138603_j45956150067864_2_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RmsValue

open Cert.KernelIdeal Cert.KernelIdeal.Gen

/-- The normalised rows as an array: entry (s, j) is normed of row s of a with the one row of w. -/
def normedArr (a : S2048x4096.Idx → EReal) (w : S1x4096.Idx → EReal) : S2048x4096.Idx → EReal :=
  fun i => Cert.Mlp.normed (fun k => a (ix2 (⟨(i 0).val, (i 0).isLt⟩ : Fin 2048) k)) (fun k => w (ix2 (0 : Fin 1) k)) ⟨(i 1).val, (i 1).isLt⟩

/-- The lane sum of the squared block at row p is the sum of the squares of that row's 4096 entries. -/
theorem sumsq_at (x : FVec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 (mulf x x) 0x00000000#32 h hφ hacc (ix1 p)
      = ∑ k : Fin 4096, x (ix2 p k) * x (ix2 p k) := by
  refine (Ideal.multiReduction_add_single (mulf x x) _ h hφ hacc (ix1 p)).trans ?_
  refine Finset.sum_congr rfl fun k _ => ?_
  have e : h.lift (ix1 p) k = ix2 p k := by
    funext a; apply Fin.ext
    match a with
    | ⟨0, _⟩ => rfl
    | ⟨1, _⟩ => rfl
  rw [e]; rfl

/-- A vector of 256 numbers viewed as a 256-by-1 column reads, at (p, 0), its entry p. -/
theorem col_at {α : Type} (v : S256.Idx → α) (h : S256.ShapeCasts S256x1) (p : Fin 256) :
    shapeCast S256x1 v h (ix2 p (0 : Fin 1)) = v (ix1 p) :=
  shapeCast_apply v h _ _ (by
    rw [Shape.rowMajor_val_two, Shape.rowMajor_val_one]
    show p.val = p.val * 1 + 0
    omega)

/-- The body's value at row p, column q of its block: entry q of the normalised row p, weighted by the one weight row. -/
theorem pay_at (x0 : Vec Ideal S256x4096 .f32) (x1 : Vec Ideal S1x4096 .f32) (p : Fin 256) (q : Fin 4096) :
    k0_pay1 (F := Ideal) x0 x1 (ix2 p q)
      = Cert.Mlp.normed (fun k => x0 (ix2 p k)) (fun k => x1 (ix2 (0 : Fin 1) k)) q := by
  unfold k0_pay1
  simp only [shapeCast_self]
  show x0 (ix2 p q) * broadcastTo S256x4096 _ broadcasts_S256x1_S256x4096 (ix2 p q)
      * broadcastTo S256x4096 x1 broadcasts_S1x4096_S256x4096 (ix2 p q) = _
  rw [Cert.Lib.broadcastTo_a1_ab_apply, broadcastTo_1b_ab_apply]
  show x0 (ix2 p q) * Ideal.rsqrt (Ideal.div (shapeCast S256x1 _ shapeCasts_S256_S256x1 (ix2 p (0 : Fin 1))) Cert.Mlp.cH + Cert.Mlp.cEps)
      * x1 (ix2 (0 : Fin 1) q)
    = x0 (ix2 p q) * Ideal.rsqrt (Ideal.div (∑ k : Fin 4096, x0 (ix2 p k) * x0 (ix2 p k)) Cert.Mlp.cH + Cert.Mlp.cEps)
      * x1 (ix2 (0 : Fin 1) q)
  rw [col_at]
  refine congrArg (fun s => x0 (ix2 p q) * Ideal.rsqrt (Ideal.div s Cert.Mlp.cH + Cert.Mlp.cEps) * x1 (ix2 (0 : Fin 1) q)) ?_
  exact sumsq_at x0 _ _ _ p

theorem hz : (![0, 0] : Fin 2 → Nat) = fun _ => 0 := funext fun a => by fin_cases a <;> rfl

/-- The region's index maps over its 8 points: point t's row block is t for the input rows and the output, the column block
    and the weight row's block are always 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- normed at equal rows, weights and columns. -/
theorem normed_congr {r r' w w' : Fin 4096 → EReal} {j j' : Fin 4096} (hr : r = r') (hw : w = w') (hj : j = j') :
    Cert.Mlp.normed r w j = Cert.Mlp.normed r' w' j' := by
  subst hr hw hj; rfl

/-- What point t writes back is block t of the normalised array. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (normedArr (V c main_v0) (V c main_v1)) := by
  show (cfg0.win 2).cut (grid0.coords t) ((dat0 (F := Ideal) V c).after 2 t) = _
  rw [after0_2]
  unfold out0_2
  rw [View.canon_unit_zero hz]
  simp only [View.ld_unit_zero (S := S256x4096) hz, View.ld_unit_zero (S := S1x4096) hz]
  obtain ⟨e00, e01, e10, e11, e20, e21⟩ := idx_facts t
  refine funext fun (j : S256x4096.Idx) => ?_
  obtain ⟨p, q, rfl⟩ : ∃ (p : Fin 256) (q : Fin 4096), j = ix2 p q := ⟨j 0, j 1, eq_ix2 j⟩
  show k0_pay1 (F := Ideal) (iblk0 V c 0 t) (iblk0 V c 1 t) (ix2 p q)
    = normedArr (V c main_v0) (V c main_v1) (((cfg0.win 2).blk t).view.emb (ix2 p q))
  refine (pay_at (iblk0 V c 0 t) (iblk0 V c 1 t) p q).trans ?_
  unfold normedArr
  refine normed_congr (funext fun k => ?_) (funext fun k => ?_) (Fin.ext ?_)
  · show V c main_v0 (((cfg0.win 0).blk t).view.emb (ix2 p k)) = V c main_v0 _
    refine congrArg (V c main_v0) (funext fun a => Fin.ext ?_)
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 4096 + 1 * k.val = k.val
      omega
  · show V c main_v1 (((cfg0.win 1).blk t).view.emb (ix2 (0 : Fin 1) k)) = V c main_v1 _
    refine congrArg (V c main_v1) (funext fun a => Fin.ext ?_)
    match a with
    | ⟨0, _⟩ =>
      show win0_1.index t (0 : Fin 2) * 1 + 1 * 0 = 0
      omega
    | ⟨1, _⟩ =>
      show win0_1.index t (1 : Fin 2) * 4096 + 1 * k.val = k.val
      omega
  · show q.val = win0_2.index t (1 : Fin 2) * 4096 + 1 * q.val
    omega

/-- An index of the array is in point t's block iff each coordinate is in the block's range on its axis. -/
theorem mem_blk (t : Fin cfg0.N) (i : S2048x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Every index of the array is in some point's block: row r lies in the block of point r / 256. -/
theorem cover (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The first region's output array after its run: the normalised rows of the first array with the weight row. -/
theorem final2 (V : (c : Dev nD) → (b : Ref sig .tc) → Buf (Elt Ideal) ((c : Thread nD τ).loc b)) (c : Dev nD) :
    (dat0 (F := Ideal) V c).arrAt 2 cfg0.N = normedArr (V c main_v0) (V c main_v1) :=
  (dat0 (F := Ideal) V c).arrAt_eq_of_cover 2 (normedArr (V c main_v0) (V c main_v1)) (fun t _ => flushed_eq V c t) cover

end Cert.KernelIdeal.RmsValue

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«138603_j45956150067864_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.MlpBody.lean ====
/-
  The gated layer's body at one grid point, read at an entry.

  At a point the body holds a block h of 512 normalised rows, a tile of 256 rows of each of the gate and up weight
  matrices, the matching 256 columns of the down projection (as 4096 rows of 256), and the running output block acc.
  It leaves acc + (unit(h·Gᵀ, h·Uᵀ)) · Dᵀ: at (p, q) the running value plus the sum over the tile's 256 hidden units k
  of unit (Σ_j h p j · G k j) (Σ_j h p j · U k j) · D q k.
-/
import proofs.«138603_j45956150067864_2_alg».proof.Proof.Gen.KernelIdeal.Skeleton
import proofs.«138603_j45956150067864_2_alg».proof.Proof.Spec
import proofs.«138603_j45956150067864_2_alg».proof.Proof.LibTransMatmul
import Idealize.ShloMosaic.Lib.Pipeline.Value

noncomputable section

open scoped BigOperators

namespace Cert.KernelIdeal.MlpBody

open Cert.KernelIdeal Cert.KernelIdeal.Gen
open Idealize.ShloMosaic Idealize.ShloMosaic.ValueIdx

/-- One tile's contribution at (p, q). -/
def tileTerm (h : Vec Ideal S512x4096 .bf16) (G U : Vec Ideal S256x4096 .bf16) (D : Vec Ideal S4096x256 .bf16)
    (p : Fin 512) (q : Fin 4096) : EReal :=
  ∑ k : Fin 256, Cert.Mlp.unit (∑ j : Fin 4096, h (ix2 p j) * G (ix2 k j)) (∑ j : Fin 4096, h (ix2 p j) * U (ix2 k j)) * D (ix2 q k)

/-- The accumulating store's value at (p, q): the running value plus the tile's contribution. -/
theorem pay2_at (h : Vec Ideal S512x4096 .bf16) (G U : Vec Ideal S256x4096 .bf16) (D : Vec Ideal S4096x256 .bf16)
    (acc : Vec Ideal S512x4096 .f32) (p : Fin 512) (q : Fin 4096) :
    k1_pay2 (F := Ideal) h G U D acc (ix2 p q) = acc (ix2 p q) + tileTerm h G U D p q := by
  unfold k1_pay2 tileTerm
  simp only [shapeCast_self]
  refine congrArg (acc (ix2 p q) + ·) ?_
  refine (Cert.Lib.matmul_t2_zero_at dot_S512x256_S4096x256_S512x4096_1_1_0_0_n_n rfl rfl rfl rfl rfl rfl (φ₁ := .bf16) (φ₂ := .bf16) none _ D p q).trans ?_
  refine Finset.sum_congr rfl fun k _ => ?_
  refine congrArg (· * D (ix2 q k)) ?_
  show (matmul dot_S512x4096_S256x4096_S512x256_1_1_0_0_n_n none h G (constant (F := Ideal) S512x256 .f32 0x00000000#32) (ix2 p k)
      * Ideal.logistic (matmul dot_S512x4096_S256x4096_S512x256_1_1_0_0_n_n none h G (constant (F := Ideal) S512x256 .f32 0x00000000#32) (ix2 p k)))
      * matmul dot_S512x4096_S256x4096_S512x256_1_1_0_0_n_n none h U (constant (F := Ideal) S512x256 .f32 0x00000000#32) (ix2 p k) = _
  rw [Cert.Lib.matmul_t2_zero_at dot_S512x4096_S256x4096_S512x256_1_1_0_0_n_n rfl rfl rfl rfl rfl rfl (φ₁ := .bf16) (φ₂ := .bf16) none h G p k,
    Cert.Lib.matmul_t2_zero_at dot_S512x4096_S256x4096_S512x256_1_1_0_0_n_n rfl rfl rfl rfl rfl rfl (φ₁ := .bf16) (φ₂ := .bf16) none h U p k]
  rfl

/-- The resetting store's value: zero everywhere. -/
theorem pay1_at (i : S512x4096.Idx) : k1_pay1 (F := Ideal) i = 0 := by
  unfold k1_pay1
  exact Ideal.ofBits_zero_f32

end Cert.KernelIdeal.MlpBody

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.MlpSum.lean ====
/-
  A sum over the 14336 hidden units taken 256 at a time.

  14336 = 56 · 256: a sum over all hidden units is the sum over the 56 tiles of the sum over the 256 units of a tile,
  unit k of tile s being hidden unit 256·s + k. Only the grouping of the terms changes.
-/
import proofs.«138603_j45956150067864_2_alg».proof.Proof.LibTiles
import Mathlib.Data.EReal.Basic

open scoped BigOperators

namespace Cert.Mlp

/-- Σ over Fin 14336 = Σ over 56 tiles of Σ over 256 units (a term is read only where 256·s + k < 14336, which is
    everywhere in range). -/
theorem sum_hidden_tiles {M : Type*} [AddCommMonoid M] (f : Fin 14336 → M) :
    ∑ k : Fin 14336, f k
      = ∑ s ∈ Finset.range 56, ∑ k : Fin 256, (if h : 256 * s + k.val < 14336 then f ⟨256 * s + k.val, h⟩ else 0) := by
  rw [← Cert.Tiles.sum_range_dite 14336 f]
  exact (Cert.Tiles.sum_tiles_fin 256 (fun d => if h : d < 14336 then f ⟨d, h⟩ else 0) 56).symm

end Cert.Mlp
-- ==== Proof.MlpArr.lean ====
/-
  The gated layer's output as an array of 2048 rows and 4096 columns, from the four arrays the layer reads: the
  normalised activations h (2048 × 4096), the gate and up weights (14336 × 4096 each) and the down projection
  (4096 × 14336). Entry (r, q) is mlpRow of row r of h, the two weight matrices, and row q of the down projection.
-/
import proofs.«138603_j45956150067864_2_alg».proof.KernelIdeal
import proofs.«138603_j45956150067864_2_alg».proof.Proof.Spec
import Idealize.ShloMosaic.Lib.ValueIdx

noncomputable section

namespace Cert.KernelIdeal.MlpValue

open Cert.KernelIdeal
open Idealize.ShloMosaic Idealize.ShloMosaic.ValueIdx

/-- The layer's output at row r, column q. -/
def mlpAt (h : S2048x4096.Idx → EReal) (gw uw : S14336x4096.Idx → EReal) (dw : S4096x14336.Idx → EReal)
    (r : Fin 2048) (q : Fin 4096) : EReal :=
  Cert.Mlp.mlpRow (fun j => h (ix2 r j)) (fun k j => gw (ix2 k j)) (fun k j => uw (ix2 k j)) (fun k => dw (ix2 q k))

/-- The layer's output as an array. -/
def mlpArr (h : S2048x4096.Idx → EReal) (gw uw : S14336x4096.Idx → EReal) (dw : S4096x14336.Idx → EReal) :
    S2048x4096.Idx → EReal :=
  fun i => mlpAt h gw uw dw ⟨(i 0).val, (i 0).isLt⟩ ⟨(i 1).val, (i 1).isLt⟩

end Cert.KernelIdeal.MlpValue

end
-- ==== Proof.MlpValue.lean ====
/-
  What the gated-layer region leaves in its output array.

  The grid has 4 × 56 points; point t = 56·s + i works on row block s (512 rows) and hidden tile i (256 units). The
  output block of row block s stays in place over the 56 points of its run: the first point of a run stores zero and
  adds tile 0's contribution, every later point adds its tile's, and the block is written back after the last. So
  the block written back holds, at (p, q), the sum over the 56 tiles of the sum over the tile's 256 units — the sum over
  all 14336 hidden units, taken 256 at a time — of unit (h·G_k) (h·U_k) · D q k for row 512·s + p of the normalised
  activations: the gated layer's output entry.
-/
import proofs.«138603_j45956150067864_2_alg».proof.Proof.Gen.KernelIdeal.Frame
import proofs.«138603_j45956150067864_2_alg».proof.Proof.MlpBody
import proofs.«138603_j45956150067864_2_alg».proof.Proof.MlpSum
import proofs.«138603_j45956150067864_2_alg».proof.Proof.MlpArr
import Idealize.ShloMosaic.Lib.Pipeline.Value
import Idealize.ShloMosaic.Lib.Tactic

set_option maxRecDepth 16384

noncomputable section

open scoped BigOperators

namespace Cert.KernelIdeal.MlpValue

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## The two control cases' values -/

section Cases

variable {F : FTy → Type} [FloatOps F]

theorem hz : (![0, 0] : Fin 2 → Nat) = fun _ => 0 := funext fun a => by fin_cases a <;> rfl

/-- A later point of a run: the body leaves the accumulating store's value over the running block xo. -/
theorem out_B (c : Dev nD) (i : grid1.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : ¬cond1_0 i) (x0 : Vec F S512x4096 .bf16) (x1 x2 : Vec F S256x4096 .bf16) (x3 : Vec F S4096x256 .bf16) (xo : Vec F S512x4096 .f32) :
    out1_B_4 c i a2 h2 a3 h3 a4 h4 a5 h5 a6 h6 hc x0 x1 x2 x3 xo = k1_pay2 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz]
  simp only [View.readAt_eq_ld, h2.read_unread, h3.read_unread, h4.read_unread, h5.read_unread, h6.read_unread,
    View.ld_unit_zero (S := S512x4096) hz, View.ld_unit_zero (S := S256x4096) hz, View.ld_unit_zero (S := S4096x256) hz]

/-- The first point of a run: the body stores the zero block, reads it back, and leaves the accumulating store's
    value over it. -/
theorem out_A (c : Dev nD) (i : grid1.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : cond1_0 i) (x0 : Vec F S512x4096 .bf16) (x1 x2 : Vec F S256x4096 .bf16) (x3 : Vec F S4096x256 .bf16) :
    out1_A_4 c i a2 h2 a3 h3 a4 h4 a5 h5 a6 h6 hc x0 x1 x2 x3 = k1_pay2 x0 x1 x2 x3 k1_pay1 := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S256x4096) hz, View.ld_unit_zero (S := S4096x256) hz]

end Cases

/-! ## Where the blocks sit -/

/-- The printed index maps over the grid: the activations' and the output's block follow the row block t / 56, the
    three weight tiles the hidden tile t % 56. -/
theorem idx_facts : ∀ t : Fin cfg1.N,
    win1_0.index t (0 : Fin 2) = t.val / 56 ∧ win1_0.index t (1 : Fin 2) = 0
    ∧ win1_1.index t (0 : Fin 2) = t.val % 56 ∧ win1_1.index t (1 : Fin 2) = 0
    ∧ win1_2.index t (0 : Fin 2) = t.val % 56 ∧ win1_2.index t (1 : Fin 2) = 0
    ∧ win1_3.index t (0 : Fin 2) = 0 ∧ win1_3.index t (1 : Fin 2) = t.val % 56
    ∧ win1_4.index t (0 : Fin 2) = t.val / 56 ∧ win1_4.index t (1 : Fin 2) = 0 :=
  (by decide +kernel : ∀ t : Fin grid1.N, _)

theorem lt_N (t : Fin cfg1.N) : t.val < 224 := lt_of_lt_of_eq t.isLt N_1

section Blocks

variable {F : FTy → Type} [FloatOps F]
variable (V : (c : Dev nD) → (b : Ref sig .tc) → Buf (Elt F) ((c : Thread nD τ).loc b)) (c : Dev nD)

/-- Row p of the activations' block at point t is row 512·(t / 56) + p of the array. -/
theorem iblk_0 (t : Fin cfg1.N) (p : Fin 512) (j : Fin 4096) (r : Fin 2048) (hr : r.val = 512 * (t.val / 56) + p.val) :
    iblk1 V c 0 t (ix2 p j) = V c main_v2 (ix2 r j) := by
  obtain ⟨e0, e1, -⟩ := idx_facts t
  unfold iblk1
  rw [View.read_apply]
  show V c main_v2 (((cfg1.win 0).blk t).view.emb (ix2 p j)) = _
  refine congrArg (V c main_v2) (funext fun a => Fin.ext ?_)
  match a with
  | ⟨0, _⟩ => show win1_0.index t (0 : Fin 2) * 512 + 1 * p.val = r.val; rw [e0, hr]; omega
  | ⟨1, _⟩ => show win1_0.index t (1 : Fin 2) * 4096 + 1 * j.val = j.val; rw [e1]; omega

/-- Row k of the gate weights' tile at point t is row 256·(t % 56) + k of the array. -/
theorem iblk_1 (t : Fin cfg1.N) (k : Fin 256) (j : Fin 4096) (u : Fin 14336) (hu : u.val = 256 * (t.val % 56) + k.val) :
    iblk1 V c 1 t (ix2 k j) = V c main_v3 (ix2 u j) := by
  obtain ⟨-, -, e0, e1, -⟩ := idx_facts t
  unfold iblk1
  rw [View.read_apply]
  show V c main_v3 (((cfg1.win 1).blk t).view.emb (ix2 k j)) = _
  refine congrArg (V c main_v3) (funext fun a => Fin.ext ?_)
  match a with
  | ⟨0, _⟩ => show win1_1.index t (0 : Fin 2) * 256 + 1 * k.val = u.val; rw [e0, hu]; omega
  | ⟨1, _⟩ => show win1_1.index t (1 : Fin 2) * 4096 + 1 * j.val = j.val; rw [e1]; omega

/-- The same for the up weights. -/
theorem iblk_2 (t : Fin cfg1.N) (k : Fin 256) (j : Fin 4096) (u : Fin 14336) (hu : u.val = 256 * (t.val % 56) + k.val) :
    iblk1 V c 2 t (ix2 k j) = V c main_v4 (ix2 u j) := by
  obtain ⟨-, -, -, -, e0, e1, -⟩ := idx_facts t
  unfold iblk1
  rw [View.read_apply]
  show V c main_v4 (((cfg1.win 2).blk t).view.emb (ix2 k j)) = _
  refine congrArg (V c main_v4) (funext fun a => Fin.ext ?_)
  match a with
  | ⟨0, _⟩ => show win1_2.index t (0 : Fin 2) * 256 + 1 * k.val = u.val; rw [e0, hu]; omega
  | ⟨1, _⟩ => show win1_2.index t (1 : Fin 2) * 4096 + 1 * j.val = j.val; rw [e1]; omega

/-- Column k of the down projection's tile at point t is column 256·(t % 56) + k of the array. -/
theorem iblk_3 (t : Fin cfg1.N) (q : Fin 4096) (k : Fin 256) (u : Fin 14336) (hu : u.val = 256 * (t.val % 56) + k.val) :
    iblk1 V c 3 t (ix2 q k) = V c main_v5 (ix2 q u) := by
  obtain ⟨-, -, -, -, -, -, e0, e1, -⟩ := idx_facts t
  unfold iblk1
  rw [View.read_apply]
  show V c main_v5 (((cfg1.win 3).blk t).view.emb (ix2 q k)) = _
  refine congrArg (V c main_v5) (funext fun a => Fin.ext ?_)
  match a with
  | ⟨0, _⟩ => show win1_3.index t (0 : Fin 2) * 4096 + 1 * q.val = q.val; rw [e0]; omega
  | ⟨1, _⟩ => show win1_3.index t (1 : Fin 2) * 256 + 1 * k.val = u.val; rw [e1, hu]; omega

end Blocks

/-! ## A run of 56 points as a sum -/

section Acc

variable (V : (c : Dev nD) → (b : Ref sig .tc) → Buf (Elt Ideal) ((c : Thread nD τ).loc b)) (c : Dev nD)

/-- The accumulating store's value at any entry of the block. -/
theorem pay2_apply (h : Vec Ideal S512x4096 .bf16) (G U : Vec Ideal S256x4096 .bf16) (D : Vec Ideal S4096x256 .bf16)
    (acc : Vec Ideal S512x4096 .f32) (i : S512x4096.Idx) :
    k1_pay2 (F := Ideal) h G U D acc i
      = acc i + MlpBody.tileTerm h G U D ⟨(i 0).val, (i 0).isLt⟩ ⟨(i 1).val, (i 1).isLt⟩ := by
  obtain ⟨p, q, rfl⟩ : ∃ (p : Fin 512) (q : Fin 4096), i = ix2 p q :=
    ⟨⟨(i 0).val, (i 0).isLt⟩, ⟨(i 1).val, (i 1).isLt⟩, funext fun a => by match a with | ⟨0, _⟩ => rfl | ⟨1, _⟩ => rfl⟩
  exact MlpBody.pay2_at h G U D acc p q

/-- What a run's first point leaves in the output block. -/
def first (n : ℕ) (h : n < cfg1.N) : Vec Ideal S512x4096 .f32 :=
  k1_pay2 (iblk1 V c 0 ⟨n, h⟩) (iblk1 V c 1 ⟨n, h⟩) (iblk1 V c 2 ⟨n, h⟩) (iblk1 V c 3 ⟨n, h⟩) (k1_pay1 (F := Ideal))

/-- What a later point leaves over the running block. -/
def step (n : ℕ) (h : n < cfg1.N) (acc : Vec Ideal S512x4096 .f32) : Vec Ideal S512x4096 .f32 :=
  k1_pay2 (iblk1 V c 0 ⟨n, h⟩) (iblk1 V c 1 ⟨n, h⟩) (iblk1 V c 2 ⟨n, h⟩) (iblk1 V c 3 ⟨n, h⟩) acc

/-- Point n's contribution at an entry of the block (nothing past the grid). -/
def addend (n : ℕ) (i : S512x4096.Idx) : EReal :=
  if h : n < cfg1.N then
    MlpBody.tileTerm (iblk1 V c 0 ⟨n, h⟩) (iblk1 V c 1 ⟨n, h⟩) (iblk1 V c 2 ⟨n, h⟩) (iblk1 V c 3 ⟨n, h⟩)
      ⟨(i 0).val, (i 0).isLt⟩ ⟨(i 1).val, (i 1).isLt⟩
  else 0

/-- After the last point of run q the output block holds the sum of the 56 points' contributions. -/
theorem run_sum (q : ℕ) (h : 56 * q + 55 < cfg1.N) (i : S512x4096.Idx) :
    outsAt1 V c (56 * q + 55) h i = 0 + ∑ s ∈ Finset.range 56, addend V c (56 * q + s) i := by
  rw [Pipeline.eq_accAt (outsAt1 V c) 56 (first V c) (step V c)
    (fun n hn e => (outsAt1_A V c ⟨n, hn⟩ e).trans
      (out_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩)
        (ms1_3 ⟨n, hn⟩) (hs1_3 ⟨n, hn⟩) (ms1_4 ⟨n, hn⟩) (hs1_4 ⟨n, hn⟩) ((hcond1_0 ⟨n, hn⟩).mpr e)
        (iblk1 V c 0 ⟨n, hn⟩) (iblk1 V c 1 ⟨n, hn⟩) (iblk1 V c 2 ⟨n, hn⟩) (iblk1 V c 3 ⟨n, hn⟩)))
    (fun n hn e => (outsAt1_B V c ⟨n + 1, hn⟩ e).trans
      (out_B c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun hh => e ((hcond1_0 ⟨n + 1, hn⟩).mp hh))
        (iblk1 V c 0 ⟨n + 1, hn⟩) (iblk1 V c 1 ⟨n + 1, hn⟩) (iblk1 V c 2 ⟨n + 1, hn⟩) (iblk1 V c 3 ⟨n + 1, hn⟩)
        (outsAt1 V c n (Nat.lt_of_succ_lt hn))))
    q 55 (by decide) h]
  refine Pipeline.accAt_add_apply (ι := S512x4096.Idx) (β := EReal) (first V c) (step V c) (fun _ => 0) (addend V c) (56 * q) 55
    (fun hb i => ?_) (fun n hn acc i _ _ => ?_) 55 le_rfl h i
  · unfold first addend
    rw [dif_pos hb, pay2_apply, MlpBody.pay1_at]
  · unfold step addend
    rw [dif_pos hn]
    exact pay2_apply _ _ _ _ acc i

end Acc

/-! ## The block written back, and the array -/

section Final

variable (V : (c : Dev nD) → (b : Ref sig .tc) → Buf (Elt Ideal) ((c : Thread nD τ).loc b)) (c : Dev nD)

/-- Point n's contribution at (p, q), for a point of the grid. -/
theorem addend_at (n : ℕ) (h : n < cfg1.N) (p : Fin 512) (q : Fin 4096) :
    addend V c n (ix2 p q)
      = MlpBody.tileTerm (iblk1 V c 0 ⟨n, h⟩) (iblk1 V c 1 ⟨n, h⟩) (iblk1 V c 2 ⟨n, h⟩) (iblk1 V c 3 ⟨n, h⟩) p q := by
  unfold addend
  exact (dif_pos h).trans rfl

/-- The contributions of the 56 points of run s at (p, q) add up to the layer's output at row 512·s + p, column q:
    the 14336 hidden units taken 256 at a time. -/
theorem sum_addends (s : ℕ) (hs : s < 4) (p : Fin 512) (q : Fin 4096) (r : Fin 2048) (hr : r.val = 512 * s + p.val) :
    0 + ∑ i ∈ Finset.range 56, addend V c (56 * s + i) (ix2 p q)
      = mlpAt (V c main_v2) (V c main_v3) (V c main_v4) (V c main_v5) r q := by
  unfold mlpAt Cert.Mlp.mlpRow
  rw [zero_add, Cert.Mlp.sum_hidden_tiles]
  refine Finset.sum_congr rfl fun i hi => ?_
  have hi' : i < 56 := Finset.mem_range.mp hi
  have hN : 56 * s + i < cfg1.N := lt_of_lt_of_eq (by omega : 56 * s + i < 224) N_1.symm
  have hdiv : (56 * s + i) / 56 = s := by omega
  have hmod : (56 * s + i) % 56 = i := by omega
  rw [addend_at V c _ hN p q]
  unfold MlpBody.tileTerm
  refine Finset.sum_congr rfl fun k _ => ?_
  have hk : 256 * i + k.val < 14336 := by have := k.isLt; omega
  have hu : (⟨256 * i + k.val, hk⟩ : Fin 14336).val = 256 * ((⟨56 * s + i, hN⟩ : Fin cfg1.N).val % 56) + k.val := by
    show 256 * i + k.val = 256 * ((56 * s + i) % 56) + k.val; rw [hmod]
  have hr' : r.val = 512 * ((⟨56 * s + i, hN⟩ : Fin cfg1.N).val / 56) + p.val := by
    show r.val = 512 * ((56 * s + i) / 56) + p.val; rw [hdiv]; exact hr
  rw [dif_pos hk]
  unfold Cert.Mlp.hidden
  rw [iblk_3 V c ⟨56 * s + i, hN⟩ q k ⟨256 * i + k.val, hk⟩ hu]
  refine congrArg (· * V c main_v5 (ix2 q (⟨256 * i + k.val, hk⟩ : Fin 14336))) ?_
  refine congrArg₂ Cert.Mlp.unit (Finset.sum_congr rfl fun j _ => ?_) (Finset.sum_congr rfl fun j _ => ?_)
  · rw [iblk_0 V c ⟨56 * s + i, hN⟩ p j r hr', iblk_1 V c ⟨56 * s + i, hN⟩ k j ⟨256 * i + k.val, hk⟩ hu]
  · rw [iblk_0 V c ⟨56 * s + i, hN⟩ p j r hr', iblk_2 V c ⟨56 * s + i, hN⟩ k j ⟨256 * i + k.val, hk⟩ hu]

/-- What a point that writes the output block back writes: its block of the layer's output array. -/
theorem flushed_eq (t : Fin cfg1.N) (hf : (cfg1.win 4).flush t = true) :
    (dat1 V c).flushed 4 t
      = ((cfg1.win 4).blk t).view.read (Elt Ideal) (mlpArr (V c main_v2) (V c main_v3) (V c main_v4) (V c main_v5)) := by
  have h55 : t.val % 56 = 55 := (flush1_4 t).mp hf
  have hlt := lt_N t
  obtain ⟨-, -, -, -, -, -, -, -, e0, e1⟩ := idx_facts t
  show (cfg1.win 4).cut (grid1.coords t) ((dat1 V c).after 4 t) = _
  rw [after1_4]
  funext j
  obtain ⟨p, q, rfl⟩ : ∃ (p : Fin 512) (q : Fin 4096), j = ix2 p q := ⟨j 0, j 1, eq_ix2 j⟩
  rw [View.read_apply]
  have hq : 56 * (t.val / 56) + 55 < cfg1.N := lt_of_lt_of_eq (by omega : 56 * (t.val / 56) + 55 < 224) N_1.symm
  have same : ∀ (u : ℕ) (hu : u < cfg1.N), u = t.val → outsAt1 V c u hu = outsAt1 V c t.val t.isLt :=
    fun u hu e => by subst e; rfl
  show outsAt1 V c t.val t.isLt (ix2 p q) = mlpArr _ _ _ _ (((cfg1.win 4).blk t).view.emb (ix2 p q))
  rw [← same _ hq (by omega), run_sum V c (t.val / 56) hq (ix2 p q)]
  have hr : 512 * (t.val / 56) + p.val < 2048 := by have := p.isLt; omega
  refine (sum_addends V c (t.val / 56) (by omega) p q ⟨512 * (t.val / 56) + p.val, hr⟩ rfl).trans ?_
  unfold mlpArr
  refine congrArg₂ (mlpAt (V c main_v2) (V c main_v3) (V c main_v4) (V c main_v5)) (Fin.ext ?_) (Fin.ext ?_)
  · show 512 * (t.val / 56) + p.val = win1_4.index t (0 : Fin 2) * 512 + 1 * p.val
    rw [e0]; omega
  · show q.val = win1_4.index t (1 : Fin 2) * 4096 + 1 * q.val
    rw [e1]; omega

/-- The region's output array ends holding the layer's output: the blocks written back after the last point of each
    run tile it (row r is in the block of run r / 512). -/
theorem final4 : (dat1 (F := Ideal) V c).arrAt 4 cfg1.N = mlpArr (V c main_v2) (V c main_v3) (V c main_v4) (V c main_v5) :=
  (dat1 V c).arrAt_eq_of_cover 4 _ (flushed_eq V c) fun i => by
    have h0 : (i 0).val < 2048 := (i 0).isLt
    have h1 : (i 1).val < 4096 := (i 1).isLt
    obtain ⟨tt, htt⟩ : ∃ tt : Fin cfg1.N, tt.val = 56 * ((i 0).val / 512) + 55 :=
      ⟨⟨56 * ((i 0).val / 512) + 55, lt_of_lt_of_eq (by omega : 56 * ((i 0).val / 512) + 55 < 224) N_1.symm⟩, rfl⟩
    obtain ⟨-, -, -, -, -, -, -, -, e0, e1⟩ := idx_facts tt
    refine ⟨tt, (flush1_4 tt).mpr (by rw [htt]; omega), ?_⟩
    show i ∈ ((View.whole main_v6).slice (win1_4.rect tt)).set
    rw [View.set_slice_whole, Rect.mem_set_unit]
    intro a
    match a with
    | ⟨0, _⟩ =>
      show win1_4.index tt (0 : Fin 2) * 512 ≤ (i 0).val ∧ (i 0).val < win1_4.index tt (0 : Fin 2) * 512 + 512
      rw [e0, htt]; omega
    | ⟨1, _⟩ =>
      show win1_4.index tt (1 : Fin 2) * 4096 ≤ (i 1).val ∧ (i 1).val < win1_4.index tt (1 : Fin 2) * 4096 + 4096
      rw [e1]; omega

end Final

end Cert.KernelIdeal.MlpValue

end
-- ==== Proof.Compose.lean ====
/-
  THE TWO REGIONS COMPOSED ARE THE SPECIFICATION.

  The program views its first argument [1, 2048, 4096] as a 2048-by-4096 array and its weight vector [4096] as one row
  [1, 4096], normalises the rows, changes the number format of the three weight matrices (the identity on extended
  reals), applies the gated layer row by row, and views the 2048-by-4096 result as [1, 2048, 4096]. Read at an index
  (0, r, q), every view reads the same entry of the array it views: row r of the 2048-by-4096 view of x is
  x (0, r, ·), the one row of the [1, 4096] view of w is w itself. So the composed array is, entry by entry,
  result x w gw uw dw r q.
-/
import proofs.«138603_j45956150067864_2_alg».proof.Proof.RmsValue
import proofs.«138603_j45956150067864_2_alg».proof.Proof.MlpArr
import Idealize.ShloMosaic.Lib.ValueLayout
import Idealize.ShloMosaic.Lib.Pipeline.Value

noncomputable section

namespace Cert.KernelIdeal.Compose

open Cert.KernelIdeal Cert.KernelIdeal.Gen Idealize.ShloMosaic Idealize.ShloMosaic.ValueIdx

/-- The gated layer of the normalised rows of the viewed arguments, viewed back as [1, 2048, 4096], is the
    specification's result array. -/
theorem compose (x : S1x2048x4096.Idx → EReal) (w : S4096.Idx → EReal) (gw uw : S14336x4096.Idx → EReal) (dw : S4096x14336.Idx → EReal) :
    shapeCast S1x2048x4096
        (MlpValue.mlpArr
          (RmsValue.normedArr (shapeCast S2048x4096 x shapeCasts_S1x2048x4096_S2048x4096) (shapeCast S1x4096 w shapeCasts_S4096_S1x4096))
          (truncf (F := Ideal) .bf16 gw bitsLt_bf16_f32) (truncf (F := Ideal) .bf16 uw bitsLt_bf16_f32) (truncf (F := Ideal) .bf16 dw bitsLt_bf16_f32))
        shapeCasts_S2048x4096_S1x2048x4096
      = Cert.Mlp.resultArr x w gw uw dw := by
  funext i
  obtain ⟨u, r, q, rfl⟩ : ∃ (u : Fin 1) (r : Fin 2048) (q : Fin 4096), i = ix3 u r q := ⟨i 0, i 1, i 2, eq_ix3 i⟩
  refine (shapeCast_ab_1ab_apply _ shapeCasts_S2048x4096_S1x2048x4096 u r q).trans ?_
  have hX : ∀ (s : Fin 2048) (k : Fin 4096),
      shapeCast S2048x4096 x shapeCasts_S1x2048x4096_S2048x4096 (ix2 s k) = x (ix3 (0 : Fin 1) s k) :=
    fun s k => shapeCast_1ab_ab_apply x _ s k
  have hW : ∀ k : Fin 4096, shapeCast S1x4096 w shapeCasts_S4096_S1x4096 (ix2 (0 : Fin 1) k) = w (ix1 k) :=
    fun k => shapeCast_a_1a_apply w _ 0 k
  show Cert.Mlp.mlpRow
      (fun j => Cert.Mlp.normed (fun k => shapeCast S2048x4096 x shapeCasts_S1x2048x4096_S2048x4096 (ix2 r k))
        (fun k => shapeCast S1x4096 w shapeCasts_S4096_S1x4096 (ix2 (0 : Fin 1) k)) j)
      (fun k j => gw (ix2 k j)) (fun k j => uw (ix2 k j)) (fun k => dw (ix2 q k))
    = Cert.Mlp.mlpRow (Cert.Mlp.normed (fun j => x (ix3 (0 : Fin 1) r j)) (fun j => w (ix1 j)))
      (fun k j => gw (ix2 k j)) (fun k j => uw (ix2 k j)) (fun k => dw (ix2 q k))
  simp only [hX, hW]

end Cert.KernelIdeal.Compose

end
-- ==== Proof.KernelValue.lean ====
/-
  The kernel program's result is the specification's result array.

  The run leaves in the result buffer the last reshape of the gated-layer region's output array; that array is the
  layer's output of the normalisation region's output array and the three weight matrices with their float format
  changed (the identity on the extended reals); the normalisation's array is the normalised rows of the reshaped
  input and weight vector. Composed, entry (0, s, c) is the specification's result at row s, column c.
-/
import proofs.«138603_j45956150067864_2_alg».proof.Proof.RunNamed
import proofs.«138603_j45956150067864_2_alg».proof.Proof.HostGlue
import proofs.«138603_j45956150067864_2_alg».proof.Proof.RmsValue
import proofs.«138603_j45956150067864_2_alg».proof.Proof.MlpValue
import proofs.«138603_j45956150067864_2_alg».proof.Proof.Compose

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The specification's result array of the five argument arrays as launched on core c. -/
abbrev spec (c : Dev nD) : Buf (Elt Ideal) ((c.tc : Thread nD τ).loc main_v7) :=
  Cert.Mlp.resultArr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- What the fold through the program's five segments leaves in the result buffer. -/
theorem result_eq (c : Dev nD) : W5 (F := Ideal) m ρ c (Proc.devRef .tc main_v7) = spec m c := by
  rw [HostGlue.W5_v7, MlpValue.final4 (V3 m ρ) c, HostGlue.V3_v2, HostGlue.V3_v3, HostGlue.V3_v4, HostGlue.V3_v5,
    RmsValue.final2 (V1 m ρ) c, HostGlue.V1_v0, HostGlue.V1_v1]
  exact Compose.compose _ _ _ _ _

/-- The run, read: the result buffer at the specification's array, the arguments as launched. -/
theorem run : θ_run defs (onTc (τ := τ) (main (F := Ideal))) ⟨m, fun _ => 0, ρ⟩ (fun r => ∀ c : Dev nD,
      r.2.mem ((c.tc : Thread nD τ).loc main_v7) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (RunValue.run_named m ρ)

end Cert.KernelIdeal.KernelValue

end
-- ==== Proof.lean ====
/-
  The certificate's five claims.

  The kernel normalises each of 2048 rows of 4096 numbers by the reciprocal root of its mean square plus a small
  constant and by a weight vector, then applies a gated layer: for each of 14336 hidden units the inner products g and u
  of the normalised row with a row of the gate and of the up weights, the activation (g · logistic g) · u, and the
  contraction of the activations with a row of the down projection. It does so in two regions — the normalisation, 256
  rows at a time, and the layer, 512 rows by 256 hidden units at a time with the output block accumulated over the 56
  tiles of hidden units — around reshapes and changes of float format. The reference computes the same with whole-array
  operations and writes the logistic out as 1 / (1 + exp (−g)).

  On the extended reals the two agree entry by entry: every operation is the same function on both sides (a change of
  float format is the identity, the logistic is by definition 1 / (1 + exp (−g))), and the sum over the hidden units
  taken tile by tile is the whole sum, addition being commutative and associative there. No finiteness of the inputs is
  used. The three frames are the programs' runs; the idealisation rewrote no operation, so its claim is trivial.
-/
import proofs.«138603_j45956150067864_2_alg».proof.Defs
import proofs.«138603_j45956150067864_2_alg».proof.Proof.Gen.Kernel
import proofs.«138603_j45956150067864_2_alg».proof.Proof.Gen.Kernel.Skeleton
import proofs.«138603_j45956150067864_2_alg».proof.Proof.Gen.Kernel.Launch
import proofs.«138603_j45956150067864_2_alg».proof.Proof.Gen.Kernel.Points
import proofs.«138603_j45956150067864_2_alg».proof.Proof.Gen.Kernel.Frame
import proofs.«138603_j45956150067864_2_alg».proof.Proof.Gen.KernelIdeal
import proofs.«138603_j45956150067864_2_alg».proof.Proof.Gen.KernelIdeal.Skeleton
import proofs.«138603_j45956150067864_2_alg».proof.Proof.Gen.KernelIdeal.Launch
import proofs.«138603_j45956150067864_2_alg».proof.Proof.Gen.KernelIdeal.Points
import proofs.«138603_j45956150067864_2_alg».proof.Proof.Gen.KernelIdeal.Frame
import proofs.«138603_j45956150067864_2_alg».proof.Proof.Gen.ReferenceIdeal
import proofs.«138603_j45956150067864_2_alg».proof.Proof.Gen.ReferenceIdeal.Run
import proofs.«138603_j45956150067864_2_alg».proof.Proof.Gen.ReferenceIdeal.Read
import proofs.«138603_j45956150067864_2_alg».proof.Proof.Gen.Pre_finite_inputs
import proofs.«138603_j45956150067864_2_alg».proof.Proof.RefIsSpec
import proofs.«138603_j45956150067864_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the specification's result array of arguments that agree. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
